-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128x128 .f32) (main_arg11 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 76
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S50000x128, .f32⟩
  | .hbm, ⟨36, _⟩ => ⟨S1600000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S50000x128, .f32⟩
  | .hbm, ⟨53, _⟩ => ⟨S1600000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S50000x128, .f32⟩
  | .hbm, ⟨70, _⟩ => ⟨S1600000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S50000x128, .f32⟩
  | .hbm, ⟨32, _⟩ => ⟨S1600000x1, .i32⟩
  | .hbm, ⟨33, _⟩ => ⟨S50000x128, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S50000x128, .f32⟩
  | .hbm, ⟨57, _⟩ => ⟨S1600000x1, .i32⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S50000x128, .f32⟩
  | .hbm, ⟨82, _⟩ => ⟨S1600000x1, .i32⟩
  | .hbm, ⟨83, _⟩ => ⟨S50000x128, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_cst : Ref sig .tc := ⟨.hbm, 68, rfl⟩
abbrev main_call1_v0 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  The program is three launches among three stretches of host operations. Its run is followed boundary by boundary:
  the buffer contents at each boundary are a fold from the launch memory (a stretch applies its operations; a launch
  replaces its output array by what its write-backs leave and keeps everything else). Every weakly fair execution ends
  with EVERY unscoped buffer at the last boundary's contents; the frame keeps of this only the twelve arguments. Here the
  same run is read at one more buffer, the result: it ends at the last boundary's contents of the result buffer, which is
  what the third launch's write-backs leave in its output array.
-/
import proofs.«169613_j47571057770577_1_alg».proof.Proof.KernelIdealFrame

set_option maxRecDepth 16384

noncomputable section

namespace Cert.Sage.KernelRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the twelve arguments as launched. -/
theorem run_result : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

/-- The last boundary's contents of the result buffer are what the third launch's write-backs leave in its output array. -/
theorem result_eq (c : Dev nD) : W6 m ρ c (Proc.devRef .tc main_v50) = (dat2 (V5 m ρ) c).arrAt 5 cfg2.N :=
  W6_arr m ρ c 5

end Cert.Sage.KernelRun

end
-- ==== Proof.LibRecip.lean ====
/-
  Dividing against multiplying by the reciprocal, on the extended reals; and a row spread over rows.

  A program that precomputes 1 / d and multiplies, against one that divides by d: the quotient is x · d⁻¹ except at d = 0
  (where it is an infinity by the sign of x), and the inverse of an infinity is 0. So x / d = x · (1 / d) for EVERY extended
  real x as soon as d ≠ 0 — d may be infinite, x may be infinite, no finiteness is needed. A count clamped below at one,
  max (s, 1), is such a d. The last lemma reads a one-row matrix broadcast over m rows at an entry.
-/
import Idealize.ShloMosaic.PureOps.Ideal
import Idealize.ShloMosaic.Lib.ValueIdx
import Idealize.ShloMosaic.Lib.Pipeline.Value

noncomputable section

namespace Cert.LibRecip

open Idealize.ShloMosaic Idealize.ShloMosaic.ValueIdx

/-- Dividing by a non-zero d is multiplying by its reciprocal 1 / d, for every extended real x and d. -/
theorem div_eq_mul_recip (x d : EReal) (hd : d ≠ 0) : Ideal.div x d = x * Ideal.div 1 d := by
  rw [Ideal.div, if_neg hd, Ideal.div, if_neg hd, one_mul]

/-- A quantity clamped below at one is never zero. -/
theorem max_one_ne_zero (s : EReal) : max s (1 : EReal) ≠ 0 :=
  ne_of_gt (lt_of_lt_of_le (by norm_num : (0 : EReal) < 1) (le_max_right s 1))

/-- A row [1, n] spread over m rows reads, at (r, q), the row at q. -/
theorem bcast_row {α : Type} {m n : ℕ} (v : (⟨2, ![1, n]⟩ : Shape).Idx → α) (h : (⟨2, ![1, n]⟩ : Shape).Broadcasts ⟨2, ![m, n]⟩)
    (r : Fin m) (q : Fin n) : broadcastTo ⟨2, ![m, n]⟩ v h (ix2 r q) = v (ix2 (0 : Fin 1) q) := by
  refine broadcastTo_apply v h (ix2 r q) (ix2 (0 : Fin 1) q) fun ax => ?_
  match ax with
  | ⟨0, _⟩ => rfl
  | ⟨1, _⟩ =>
    show q.val = if n = 1 then 0 else q.val
    split
    · have := q.isLt; omega
    · rfl

end Cert.LibRecip

end
-- ==== Proof.Spec.lean ====
/-
  One graph-convolution step, entry by entry, and the one law that joins the two programs.

  A step takes the node features h (one row per node), the aggregated neighbour features nb (one row per node), two
  128 x 128 weight matrices and a bias row, and produces, at node r and output channel q,

      s(r, q) = Σ j, h (r, j) · ws (j, q)  +  Σ j, nb (r, j) · wn (j, q)  +  b q,

  clamped below at zero when the step has an activation. Everything is read on the extended reals.

  The two programs differ in how nb is made from the summed neighbour rows x and the clamped in-degree d = max (count, 1):
  one divides, x / d, the other multiplies by the reciprocal, x · (1 / d). On the extended reals the quotient by a
  NON-ZERO d is x · d⁻¹ whatever x and d are (d may be infinite: then d⁻¹ = 0 on both sides), so the two agree as soon
  as d ≠ 0 — and max (s, 1) is at least 1. No finiteness of x is needed. (The law itself is in LibRecip.)
-/
import Idealize.ShloMosaic.PureOps.Ideal
import Idealize.ShloMosaic.PureOps.Ideal.Laws
import Idealize.ShloMosaic.Lib.ValueIdx
import proofs.«169613_j47571057770577_1_alg».proof.Proof.LibRecip

noncomputable section

open scoped BigOperators

namespace Cert.Sage

open Idealize.ShloMosaic Idealize.ShloMosaic.ValueIdx

/-- Entry (r, q) of one step over n nodes: the two matrix products' entries and the bias, clamped at the zero word's
    value when `act`. -/
def entry {n : ℕ} (act : Bool) (h nb : (⟨2, ![n, 128]⟩ : Shape).Idx → EReal) (ws wn : (⟨2, ![128, 128]⟩ : Shape).Idx → EReal)
    (b : (⟨2, ![1, 128]⟩ : Shape).Idx → EReal) (r : Fin n) (q : Fin 128) : EReal :=
  bif act then
    max ((∑ j : Fin 128, h (ix2 r j) * ws (ix2 j q)) + (∑ j : Fin 128, nb (ix2 r j) * wn (ix2 j q)) + b (ix2 (0 : Fin 1) q))
      (Ideal.ofBits .f32 0x00000000#32)
  else (∑ j : Fin 128, h (ix2 r j) * ws (ix2 j q)) + (∑ j : Fin 128, nb (ix2 r j) * wn (ix2 j q)) + b (ix2 (0 : Fin 1) q)

/-- The whole result of one step, as one function of the index. -/
def step {n : ℕ} (act : Bool) (h nb : (⟨2, ![n, 128]⟩ : Shape).Idx → EReal) (ws wn : (⟨2, ![128, 128]⟩ : Shape).Idx → EReal)
    (b : (⟨2, ![1, 128]⟩ : Shape).Idx → EReal) : (⟨2, ![n, 128]⟩ : Shape).Idx → EReal :=
  fun i => entry act h nb ws wn b (i 0) (i 1)

theorem step_congr {n : ℕ} (act : Bool) {h h' nb nb' : (⟨2, ![n, 128]⟩ : Shape).Idx → EReal} {ws ws' wn wn' : (⟨2, ![128, 128]⟩ : Shape).Idx → EReal}
    {b b' : (⟨2, ![1, 128]⟩ : Shape).Idx → EReal} (e1 : h = h') (e2 : nb = nb') (e3 : ws = ws') (e4 : wn = wn') (e5 : b = b') :
    step act h nb ws wn b = step act h' nb' ws' wn' b' := by
  subst e1 e2 e3 e4 e5; rfl

theorem step_ix2 {n : ℕ} (act : Bool) (h nb : (⟨2, ![n, 128]⟩ : Shape).Idx → EReal) (ws wn : (⟨2, ![128, 128]⟩ : Shape).Idx → EReal)
    (b : (⟨2, ![1, 128]⟩ : Shape).Idx → EReal) (r : Fin n) (q : Fin 128) :
    step act h nb ws wn b (ix2 r q) = entry act h nb ws wn b r q := rfl

/-- A step's result depends on nb only through its entries. -/
theorem entry_congr {n : ℕ} (act : Bool) (h nb nb' : (⟨2, ![n, 128]⟩ : Shape).Idx → EReal)
    (ws wn : (⟨2, ![128, 128]⟩ : Shape).Idx → EReal) (b b' : (⟨2, ![1, 128]⟩ : Shape).Idx → EReal) (r : Fin n) (q : Fin 128)
    (hnb : ∀ j : Fin 128, nb (ix2 r j) = nb' (ix2 r j)) (hb : b (ix2 (0 : Fin 1) q) = b' (ix2 (0 : Fin 1) q)) :
    entry act h nb ws wn b r q = entry act h nb' ws wn b' r q := by
  have hs : (∑ j : Fin 128, nb (ix2 r j) * wn (ix2 j q)) = ∑ j : Fin 128, nb' (ix2 r j) * wn (ix2 j q) :=
    Finset.sum_congr rfl fun j _ => by rw [hnb j]
  unfold entry
  rw [hb, hs]

/-- An entry is the same over two sets of arrays that agree on the one row of each node array, the one column of each
    weight matrix and the one bias element it reads (the arrays may have different numbers of rows: a block and its array). -/
theorem entry_eq {n n' : ℕ} (act : Bool) (h nb : (⟨2, ![n, 128]⟩ : Shape).Idx → EReal) (h' nb' : (⟨2, ![n', 128]⟩ : Shape).Idx → EReal)
    (ws wn ws' wn' : (⟨2, ![128, 128]⟩ : Shape).Idx → EReal) (b b' : (⟨2, ![1, 128]⟩ : Shape).Idx → EReal)
    (r : Fin n) (r' : Fin n') (q q' : Fin 128)
    (hh : ∀ j : Fin 128, h (ix2 r j) = h' (ix2 r' j)) (hnb : ∀ j : Fin 128, nb (ix2 r j) = nb' (ix2 r' j))
    (hws : ∀ j : Fin 128, ws (ix2 j q) = ws' (ix2 j q')) (hwn : ∀ j : Fin 128, wn (ix2 j q) = wn' (ix2 j q'))
    (hb : b (ix2 (0 : Fin 1) q) = b' (ix2 (0 : Fin 1) q')) :
    entry act h nb ws wn b r q = entry act h' nb' ws' wn' b' r' q' := by
  have h1 : (∑ j : Fin 128, h (ix2 r j) * ws (ix2 j q)) = ∑ j : Fin 128, h' (ix2 r' j) * ws' (ix2 j q') :=
    Finset.sum_congr rfl fun j _ => by rw [hh j, hws j]
  have h2 : (∑ j : Fin 128, nb (ix2 r j) * wn (ix2 j q)) = ∑ j : Fin 128, nb' (ix2 r' j) * wn' (ix2 j q') :=
    Finset.sum_congr rfl fun j _ => by rw [hnb j, hwn j]
  unfold entry
  rw [h1, h2, hb]

end Cert.Sage

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.KernelHost.lean ====
/-
  The host side of the idealized kernel, as functions of the arrays.

  Between its launches the program does on the host what the reference does, with two differences. It inverts the clamped
  in-degree once, 1 / degree, keeps the inverse as a column, and MULTIPLIES each summed neighbour row by it. And it turns a
  bias vector into a one-row matrix by a reshape. A layer of this program is then one step over: the features; the summed
  neighbour rows times the inverse degree column; the two weight matrices; the bias row.

  Read at an entry: the neighbour array at (r, j) is summed (r, j) · (1 / degree r), and the bias row at (0, q) is b q.
-/
import proofs.«169613_j47571057770577_1_alg».proof.KernelIdeal
import proofs.«169613_j47571057770577_1_alg».proof.Proof.Gen.KernelIdeal
import proofs.«169613_j47571057770577_1_alg».proof.Proof.Spec
import proofs.«169613_j47571057770577_1_alg».proof.Proof.LibLayoutRead
import Idealize.ShloMosaic.Lib.ValueIdx
import Idealize.ShloMosaic.Lib.Pipeline.Value
import Idealize.ShloMosaic.PureOps.Ideal.Laws

set_option maxRecDepth 16384

noncomputable section

open scoped BigOperators

namespace Cert.Sage.KHost

open Idealize.ShloMosaic Idealize.ShloMosaic.TcCoe Idealize.SL.Sem Idealize.ShloMosaic.ValueIdx Cert.KernelIdeal Cert.KernelIdeal.Gen Cert.Sage

abbrev Feat := FVec Ideal S50000x128 .f32
abbrev Edges := IVec S1600000 32
abbrev Wt := FVec Ideal S128x128 .f32
abbrev Bias := FVec Ideal S128 .f32

/-- The clamped in-degree of every node: the number of edges that arrive, at least one. -/
def deg (dst : Edges) : FVec Ideal S50000 .f32 :=
  maximumf (Host.scatterAdd scatter_S50000_S1600000x1_S1600000_n_0_0_1 (broadcastInDim S50000 ![] bcast_S_S50000 (constant S_ .f32 0x00000000#32)) (broadcastInDim S1600000x1 ![0] bcast_S1600000_S1600000x1_0 dst) (broadcastInDim S1600000 ![] bcast_S_S1600000 (constant S_ .f32 0x3F800000#32))) (broadcastInDim S50000 ![] bcast_S_S50000 (constant S_ .f32 0x3F800000#32))

/-- The inverse clamped in-degree, as a column. -/
def invDegCol (dst : Edges) : FVec Ideal S50000x1 .f32 :=
  broadcastInDim S50000x1 ![0] bcast_S50000_S50000x1_0 (Host.divf (broadcastInDim S50000 ![] bcast_S_S50000 (constant S_ .f32 0x3F800000#32)) (deg dst))

/-- The summed neighbour rows: row r is the sum of the rows h (src e) over the edges e with dst e = r. -/
def agg (h : Feat) (src dst : Edges) : Feat :=
  Host.scatterAdd scatter_S50000x128_S1600000x1_S1600000x128_1_0_0_1 (broadcastInDim S50000x128 ![] bcast_S_S50000x128 (constant S_ .f32 0x00000000#32)) (broadcastInDim S1600000x1 ![0] bcast_S1600000_S1600000x1_0 dst) (Host.gather gather_S50000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 50000#32))) src)))

/-- The neighbour array a launch reads: the summed rows times a column spread over the lanes. -/
def neigh (h : Feat) (src dst : Edges) (col : FVec Ideal S50000x1 .f32) : Feat :=
  mulf (agg h src dst) (broadcastInDim S50000x128 ![0, 1] bcast_S50000x1_S50000x128_0_1 col)

/-- The bias row a launch reads: the bias vector as a one-row matrix. -/
def biasRow (b : Bias) : FVec Ideal S1x128 .f32 := shapeCast S1x128 b shapeCasts_S128_S1x128

/-- One layer of this program: a step over the features, the scaled neighbour sums, the weights and the bias row. -/
def layer (act : Bool) (h : Feat) (src dst : Edges) (ws wn : Wt) (b : Bias) : Feat :=
  step act h (neigh h src dst (invDegCol dst)) ws wn (biasRow b)

theorem neigh_congr {h h' : Feat} {src src' dst dst' : Edges} {col col' : FVec Ideal S50000x1 .f32}
    (e1 : h = h') (e2 : src = src') (e3 : dst = dst') (e4 : col = col') : neigh h src dst col = neigh h' src' dst' col' := by
  subst e1 e2 e3 e4; rfl

/-- The host's quotient of two per-node vectors, entry by entry. -/
theorem divf1_apply (a d : FVec Ideal S50000 .f32) (i : S50000.Idx) : Host.divf (F := Ideal) a d i = Ideal.div (a i) (d i) := rfl

/-- The scaled neighbour sums at (r, j): the summed row's entry times the node's inverse clamped in-degree. -/
theorem neigh_apply (h : Feat) (src dst : Edges) (r : Fin 50000) (j : Fin 128) :
    neigh h src dst (invDegCol dst) (ix2 r j) = agg h src dst (ix2 r j) * Ideal.div (Ideal.ofBits .f32 0x3F800000#32) (deg dst (ix1 r)) := by
  unfold neigh invDegCol
  rw [mulf_apply, Cert.LayoutRead.bid_cols, Cert.LayoutRead.bid_col, divf1_apply, Cert.LayoutRead.bcast_scalar, constant_apply]

/-- The bias row at (0, q) is the bias vector at q. -/
theorem biasRow_apply (b : Bias) (q : Fin 128) : biasRow b (ix2 (0 : Fin 1) q) = b (ix1 q) := by
  unfold biasRow
  exact shapeCast_apply b shapeCasts_S128_S1x128 _ _ (by
    rw [Shape.rowMajor_val_two, Shape.rowMajor_val_one]
    show q.val = 0 * 128 + q.val
    omega)

end Cert.Sage.KHost

end
-- ==== Proof.FoldHost.lean ====
/-
  What each stretch of host operations leaves in the buffers the launches read.

  A stretch is a list of host operations applied in order to the buffer contents W it starts from. A buffer no operation
  of the stretch writes keeps its contents. The three buffers a launch reads besides the arguments are computed by the
  stretch before it: the inverse clamped in-degree column (first stretch only; the later stretches reuse it), the
  summed neighbour rows of the current features scaled by that column, and the layer's bias as a one-row matrix.
-/
import proofs.«169613_j47571057770577_1_alg».proof.Proof.KernelIdealFrame
import proofs.«169613_j47571057770577_1_alg».proof.Proof.KernelHost
import Idealize.ShloMosaic.Lib.StableHlo.Run

set_option maxRecDepth 16384

noncomputable section

namespace Cert.Sage.FoldHost

open Idealize.ShloMosaic Idealize.ShloMosaic.TcCoe Idealize.SL.Sem Idealize.ShloMosaic.StableHlo
open Cert.KernelIdeal Cert.KernelIdeal.Gen Cert.KernelIdeal.GenP Cert.Sage.KHost

variable (W : Valuation τ sig (Elt Ideal))

/-- No operation of the stretch writes the buffer: each operation's written buffer is another one. -/
local macro "unwritten" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The first stretch -/

theorem h0_arg0 : StableHlo.after hostOps0 W (Proc.devRef .tc main_arg0) = W (Proc.devRef .tc main_arg0) := by unwritten
theorem h0_arg1 : StableHlo.after hostOps0 W (Proc.devRef .tc main_arg1) = W (Proc.devRef .tc main_arg1) := by unwritten
theorem h0_arg2 : StableHlo.after hostOps0 W (Proc.devRef .tc main_arg2) = W (Proc.devRef .tc main_arg2) := by unwritten
theorem h0_arg3 : StableHlo.after hostOps0 W (Proc.devRef .tc main_arg3) = W (Proc.devRef .tc main_arg3) := by unwritten
theorem h0_arg4 : StableHlo.after hostOps0 W (Proc.devRef .tc main_arg4) = W (Proc.devRef .tc main_arg4) := by unwritten
theorem h0_arg6 : StableHlo.after hostOps0 W (Proc.devRef .tc main_arg6) = W (Proc.devRef .tc main_arg6) := by unwritten
theorem h0_arg7 : StableHlo.after hostOps0 W (Proc.devRef .tc main_arg7) = W (Proc.devRef .tc main_arg7) := by unwritten
theorem h0_arg8 : StableHlo.after hostOps0 W (Proc.devRef .tc main_arg8) = W (Proc.devRef .tc main_arg8) := by unwritten
theorem h0_arg9 : StableHlo.after hostOps0 W (Proc.devRef .tc main_arg9) = W (Proc.devRef .tc main_arg9) := by unwritten
theorem h0_arg10 : StableHlo.after hostOps0 W (Proc.devRef .tc main_arg10) = W (Proc.devRef .tc main_arg10) := by unwritten
theorem h0_arg11 : StableHlo.after hostOps0 W (Proc.devRef .tc main_arg11) = W (Proc.devRef .tc main_arg11) := by unwritten

/-- The inverse clamped in-degree column. -/
theorem h0_v8 : StableHlo.after hostOps0 W (Proc.devRef .tc main_v8) = invDegCol (W (Proc.devRef .tc main_arg2)) := by
  unfold invDegCol deg
  after_results

/-- The first layer's bias row. -/
theorem h0_v21 : StableHlo.after hostOps0 W (Proc.devRef .tc main_v21) = biasRow (W (Proc.devRef .tc main_arg5)) := by
  unfold biasRow
  after_results
  rfl

set_option maxHeartbeats 4000000 in
/-- The first layer's scaled neighbour sums. -/
theorem h0_v20 : StableHlo.after hostOps0 W (Proc.devRef .tc main_v20)
    = neigh (W (Proc.devRef .tc main_arg0)) (W (Proc.devRef .tc main_arg1)) (W (Proc.devRef .tc main_arg2)) (invDegCol (W (Proc.devRef .tc main_arg2))) := by
  unfold neigh agg invDegCol deg
  after_results_simp

/-! ## The second stretch -/

theorem h1_v22 : StableHlo.after hostOps1 W (Proc.devRef .tc main_v22) = W (Proc.devRef .tc main_v22) := by unwritten
theorem h1_arg6 : StableHlo.after hostOps1 W (Proc.devRef .tc main_arg6) = W (Proc.devRef .tc main_arg6) := by unwritten
theorem h1_arg7 : StableHlo.after hostOps1 W (Proc.devRef .tc main_arg7) = W (Proc.devRef .tc main_arg7) := by unwritten
theorem h1_arg1 : StableHlo.after hostOps1 W (Proc.devRef .tc main_arg1) = W (Proc.devRef .tc main_arg1) := by unwritten
theorem h1_arg2 : StableHlo.after hostOps1 W (Proc.devRef .tc main_arg2) = W (Proc.devRef .tc main_arg2) := by unwritten
theorem h1_arg9 : StableHlo.after hostOps1 W (Proc.devRef .tc main_arg9) = W (Proc.devRef .tc main_arg9) := by unwritten
theorem h1_arg10 : StableHlo.after hostOps1 W (Proc.devRef .tc main_arg10) = W (Proc.devRef .tc main_arg10) := by unwritten
theorem h1_arg11 : StableHlo.after hostOps1 W (Proc.devRef .tc main_arg11) = W (Proc.devRef .tc main_arg11) := by unwritten
theorem h1_v8 : StableHlo.after hostOps1 W (Proc.devRef .tc main_v8) = W (Proc.devRef .tc main_v8) := by unwritten

/-- The second layer's bias row. -/
theorem h1_v35 : StableHlo.after hostOps1 W (Proc.devRef .tc main_v35) = biasRow (W (Proc.devRef .tc main_arg8)) := by
  unfold biasRow
  after_results
  rfl

set_option maxHeartbeats 4000000 in
/-- The second layer's scaled neighbour sums, of the first launch's output. -/
theorem h1_v34 : StableHlo.after hostOps1 W (Proc.devRef .tc main_v34)
    = neigh (W (Proc.devRef .tc main_v22)) (W (Proc.devRef .tc main_arg1)) (W (Proc.devRef .tc main_arg2)) (W (Proc.devRef .tc main_v8)) := by
  unfold neigh agg
  after_results_simp

/-! ## The third stretch -/

theorem h2_v36 : StableHlo.after hostOps2 W (Proc.devRef .tc main_v36) = W (Proc.devRef .tc main_v36) := by unwritten
theorem h2_arg9 : StableHlo.after hostOps2 W (Proc.devRef .tc main_arg9) = W (Proc.devRef .tc main_arg9) := by unwritten
theorem h2_arg10 : StableHlo.after hostOps2 W (Proc.devRef .tc main_arg10) = W (Proc.devRef .tc main_arg10) := by unwritten

/-- The third layer's bias row. -/
theorem h2_v49 : StableHlo.after hostOps2 W (Proc.devRef .tc main_v49) = biasRow (W (Proc.devRef .tc main_arg11)) := by
  unfold biasRow
  after_results
  rfl

set_option maxHeartbeats 4000000 in
/-- The third layer's scaled neighbour sums, of the second launch's output. -/
theorem h2_v48 : StableHlo.after hostOps2 W (Proc.devRef .tc main_v48)
    = neigh (W (Proc.devRef .tc main_v36)) (W (Proc.devRef .tc main_arg1)) (W (Proc.devRef .tc main_arg2)) (W (Proc.devRef .tc main_v8)) := by
  unfold neigh agg
  after_results_simp

end Cert.Sage.FoldHost

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.Payload.lean ====
/-
  What each launch's body stores, at one entry.

  The body loads its node block x0 (5000 rows), the matching block x1 of aggregated neighbour rows, the two weight
  matrices x2, x3 whole, and the bias row x4, and stores one value: the two matrix products into zero accumulators,
  added, plus the bias row spread over the rows, and — in the first two launches — the maximum with zero. Rounding the
  operands to a shorter float format is the identity on the extended reals, and a cast to the same shape changes nothing.
  So entry (p, q) of the stored block is the step's entry (p, q) of the loaded blocks.
-/
import proofs.«169613_j47571057770577_1_alg».proof.Proof.Gen.KernelIdeal.Skeleton
import proofs.«169613_j47571057770577_1_alg».proof.Proof.Spec
import proofs.«169613_j47571057770577_1_alg».proof.Proof.LibDotRead
import proofs.«169613_j47571057770577_1_alg».proof.Proof.LibRecip
import Idealize.ShloMosaic.Lib.Pipeline.Value
import Idealize.ShloMosaic.Lib.ValueIdx
import Idealize.ShloMosaic.PureOps.Ideal.Laws

noncomputable section

open scoped BigOperators

namespace Cert.Sage

open Idealize.ShloMosaic Idealize.ShloMosaic.ValueIdx Cert.KernelIdeal Cert.KernelIdeal.Gen

/-- The body's matrix product is a plain one: rows times the one contracted axis of extent 128, times columns. -/
theorem dot_plain : Cert.DotRead.Plain dot_S5000x128_S128x128_S5000x128_1_0_0_1_n_n where
  rank := rfl
  size := rfl
  lhs0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  lhs1 := fun i q => dot_S5000x128_S128x128_S5000x128_1_0_0_1_n_n.lhsIdx_val_of_single rfl i q
  rhs0 := fun i q => dot_S5000x128_S128x128_S5000x128_1_0_0_1_n_n.rhsIdx_val_of_single rfl i q
  rhs1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The unclamped sum the three bodies share, at entry (p, q): both products' entries and the bias. -/
theorem sum_apply (x0 x1 : FVec Ideal S5000x128 .f32) (x2 x3 : FVec Ideal S128x128 .f32) (x4 : FVec Ideal S1x128 .f32)
    (hb : S1x128.Broadcasts S5000x128) (p : Fin 5000) (q : Fin 128) :
    addf (addf
        (matmul dot_S5000x128_S128x128_S5000x128_1_0_0_1_n_n none (truncf .bf16 x0 bitsLt_bf16_f32) (truncf .bf16 x2 bitsLt_bf16_f32)
          (constant (F := Ideal) S5000x128 .f32 0x00000000#32))
        (matmul dot_S5000x128_S128x128_S5000x128_1_0_0_1_n_n none (truncf .bf16 x1 bitsLt_bf16_f32)
          (truncf .bf16 x3 bitsLt_bf16_f32) (constant (F := Ideal) S5000x128 .f32 0x00000000#32)))
      (broadcastTo S5000x128 x4 hb) (ix2 p q)
    = (∑ j : Fin 128, x0 (ix2 p j) * x2 (ix2 j q)) + (∑ j : Fin 128, x1 (ix2 p j) * x3 (ix2 j q)) + x4 (ix2 (0 : Fin 1) q) := by
  rw [addf_apply, addf_apply, Cert.DotRead.matmul_zero_apply _ dot_plain, Cert.DotRead.matmul_zero_apply _ dot_plain, Cert.LibRecip.bcast_row]
  rfl

/-- First launch: entry (p, q) of the stored block. -/
theorem pay0_apply (x0 x1 : FVec Ideal S5000x128 .f32) (x2 x3 : FVec Ideal S128x128 .f32) (x4 : FVec Ideal S1x128 .f32)
    (p : Fin 5000) (q : Fin 128) : k0_pay1 (F := Ideal) x0 x1 x2 x3 x4 (ix2 p q) = entry true x0 x1 x2 x3 x4 p q := by
  unfold k0_pay1 entry
  simp only [shapeCast_self, cond_true]
  rw [maximumf_apply, sum_apply]
  rfl

/-- Second launch: entry (p, q) of the stored block. -/
theorem pay1_apply (x0 x1 : FVec Ideal S5000x128 .f32) (x2 x3 : FVec Ideal S128x128 .f32) (x4 : FVec Ideal S1x128 .f32)
    (p : Fin 5000) (q : Fin 128) : k1_pay1 (F := Ideal) x0 x1 x2 x3 x4 (ix2 p q) = entry true x0 x1 x2 x3 x4 p q := by
  unfold k1_pay1 entry
  simp only [shapeCast_self, cond_true]
  rw [maximumf_apply, sum_apply]
  rfl

/-- Third launch (no clamp): entry (p, q) of the stored block. -/
theorem pay2_apply (x0 x1 : FVec Ideal S5000x128 .f32) (x2 x3 : FVec Ideal S128x128 .f32) (x4 : FVec Ideal S1x128 .f32)
    (p : Fin 5000) (q : Fin 128) : k2_pay1 (F := Ideal) x0 x1 x2 x3 x4 (ix2 p q) = entry false x0 x1 x2 x3 x4 p q := by
  unfold k2_pay1 entry
  simp only [shapeCast_self, cond_false]
  rw [sum_apply]

end Cert.Sage

end
-- ==== Proof.Region0.lean ====
/-
  The first launch's output array, as one function of the arrays it reads.

  The launch walks ten grid points down the 50000 nodes. At point t it reads rows 5000 t … 5000 t + 4999 of the node
  features and of the aggregated neighbour features, both weight matrices and the bias row whole, and writes back rows
  5000 t … 5000 t + 4999 of its output. Entry (p, q) of what it writes back is the step's entry (5000 t + p, q) of the
  whole arrays: row p of a node block IS row 5000 t + p of its array, and the weights and the bias do not move. The ten
  blocks tile the output (row r lies in block r / 5000), so after the launch the output array is the step of the arrays the
  launch found, whatever these are: the statement is over a parameter V, the buffer contents when the launch is entered.
-/
import proofs.«169613_j47571057770577_1_alg».proof.Proof.KernelIdealFrame
import proofs.«169613_j47571057770577_1_alg».proof.Proof.Payload
import Idealize.ShloMosaic.Lib.Pipeline.Value

set_option maxRecDepth 16384

noncomputable section

namespace Cert.Sage.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two node windows and the output window sit at block (t, 0), the weights
    and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the node block at point t is row 5000 t + p of the node array. -/
theorem nodes_apply (c : Dev nD) (t : Fin cfg0.N) (p : Fin 5000) (j : Fin 128) (r : Fin 50000) (hr : r.val = 5000 * t.val + p.val) :
    iblk0 V c 0 t (ix2 p j) = V c main_arg0 (ix2 r j) := by
  obtain ⟨e0, e1, -⟩ := idx_facts t
  show V c main_arg0 (((cfg0.win 0).blk t).view.emb (ix2 p j)) = V c main_arg0 (ix2 r j)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * j.val = j.val; omega

/-- Row p of the neighbour block at point t is row 5000 t + p of the neighbour array. -/
theorem neigh_apply (c : Dev nD) (t : Fin cfg0.N) (p : Fin 5000) (j : Fin 128) (r : Fin 50000) (hr : r.val = 5000 * t.val + p.val) :
    iblk0 V c 1 t (ix2 p j) = V c main_v20 (ix2 r j) := by
  obtain ⟨-, -, e0, e1, -⟩ := idx_facts t
  show V c main_v20 (((cfg0.win 1).blk t).view.emb (ix2 p j)) = V c main_v20 (ix2 r j)
  refine congrArg (V c main_v20) (funext fun a => Fin.ext ?_)
  match a with
  | ⟨0, _⟩ => show win0_1.index t (0 : Fin 2) * 5000 + 1 * p.val = r.val; omega
  | ⟨1, _⟩ => show win0_1.index t (1 : Fin 2) * 128 + 1 * j.val = j.val; omega

/-- The first weight block is the weight array, at every point. -/
theorem wself_apply (c : Dev nD) (t : Fin cfg0.N) (j q q' : Fin 128) (hq : q'.val = q.val) :
    iblk0 V c 2 t (ix2 j q) = V c main_arg3 (ix2 j q') := by
  obtain ⟨-, -, -, -, e0, e1, -⟩ := idx_facts t
  show V c main_arg3 (((cfg0.win 2).blk t).view.emb (ix2 j q)) = V c main_arg3 (ix2 j q')
  refine congrArg (V c main_arg3) (funext fun a => Fin.ext ?_)
  match a with
  | ⟨0, _⟩ => show win0_2.index t (0 : Fin 2) * 128 + 1 * j.val = j.val; omega
  | ⟨1, _⟩ => show win0_2.index t (1 : Fin 2) * 128 + 1 * q.val = q'.val; omega

/-- The second weight block is the weight array, at every point. -/
theorem wneigh_apply (c : Dev nD) (t : Fin cfg0.N) (j q q' : Fin 128) (hq : q'.val = q.val) :
    iblk0 V c 3 t (ix2 j q) = V c main_arg4 (ix2 j q') := by
  obtain ⟨-, -, -, -, -, -, e0, e1, -⟩ := idx_facts t
  show V c main_arg4 (((cfg0.win 3).blk t).view.emb (ix2 j q)) = V c main_arg4 (ix2 j q')
  refine congrArg (V c main_arg4) (funext fun a => Fin.ext ?_)
  match a with
  | ⟨0, _⟩ => show win0_3.index t (0 : Fin 2) * 128 + 1 * j.val = j.val; omega
  | ⟨1, _⟩ => show win0_3.index t (1 : Fin 2) * 128 + 1 * q.val = q'.val; omega

/-- The bias block is the bias row, at every point. -/
theorem bias_apply (c : Dev nD) (t : Fin cfg0.N) (q q' : Fin 128) (hq : q'.val = q.val) :
    iblk0 V c 4 t (ix2 (0 : Fin 1) q) = V c main_v21 (ix2 (0 : Fin 1) q') := by
  obtain ⟨-, -, -, -, -, -, -, -, e0, e1, -⟩ := idx_facts t
  show V c main_v21 (((cfg0.win 4).blk t).view.emb (ix2 (0 : Fin 1) q)) = V c main_v21 (ix2 (0 : Fin 1) q')
  refine congrArg (V c main_v21) (funext fun a => Fin.ext ?_)
  match a with
  | ⟨0, _⟩ => show win0_4.index t (0 : Fin 2) * 1 + 1 * 0 = 0; omega
  | ⟨1, _⟩ => show win0_4.index t (1 : Fin 2) * 128 + 1 * q.val = q'.val; omega

/-- What point t writes back is block t of the step of the arrays the launch found. -/
theorem flushed_eq (c : Dev nD) (t : Fin cfg0.N) :
    (dat0 V c).flushed 5 t = ((cfg0.win 5).blk t).view.read (Elt Ideal)
      (step true (V c main_arg0) (V c main_v20) (V c main_arg3) (V c main_arg4) (V c main_v21)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have hi0 : ((((cfg0.win 5).blk t).view.emb (ix2 p q)) 0).val = 5000 * t.val + p.val := by
    show win0_5.index t (0 : Fin 2) * 5000 + 1 * p.val = _; omega
  have hi1 : ((((cfg0.win 5).blk t).view.emb (ix2 p q)) 1).val = q.val := by
    show win0_5.index t (1 : Fin 2) * 128 + 1 * q.val = _; omega
  show k0_pay1 (iblk0 V c 0 t) (iblk0 V c 1 t) (iblk0 V c 2 t) (iblk0 V c 3 t) (iblk0 V c 4 t) (ix2 p q)
    = entry true (V c main_arg0) (V c main_v20) (V c main_arg3) (V c main_arg4) (V c main_v21)
        ((((cfg0.win 5).blk t).view.emb (ix2 p q)) 0) ((((cfg0.win 5).blk t).view.emb (ix2 p q)) 1)
  refine (pay0_apply (iblk0 V c 0 t) (iblk0 V c 1 t) (iblk0 V c 2 t) (iblk0 V c 3 t) (iblk0 V c 4 t) p q).trans ?_
  exact entry_eq true (iblk0 V c 0 t) (iblk0 V c 1 t) (V c main_arg0) (V c main_v20) (iblk0 V c 2 t) (iblk0 V c 3 t) (V c main_arg3) (V c main_arg4)
    (iblk0 V c 4 t) (V c main_v21) p _ q _
    (fun j => nodes_apply V c t p j _ hi0) (fun j => neigh_apply V c t p j _ hi0)
    (fun j => wself_apply V c t j q _ hi1) (fun j => wneigh_apply V c t j q _ hi1) (bias_apply V c t q _ hi1)

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22).slice (win0_5.rect t)).set ↔ _
  rw [View.set_slice_whole, Rect.mem_set_unit]
  exact Iff.rfl

/-- After the launch the output array is the step of the arrays the launch found: the ten blocks tile it. -/
theorem final (c : Dev nD) : (dat0 V c).arrAt 5 cfg0.N
    = step true (V c main_arg0) (V c main_v20) (V c main_arg3) (V c main_arg4) (V c main_v21) :=
  (dat0 V c).arrAt_eq_of_cover 5 _ (fun t _ => flushed_eq V c t) fun i => by
    have h0 : (i 0).val < 50000 := (i 0).isLt
    have h1 : (i 1).val < 128 := (i 1).isLt
    have hN : grid0.N = 10 := N_0
    have ht : (i 0).val / 5000 < cfg0.N := by show _ < grid0.N; rw [hN]; omega
    obtain ⟨-, -, -, -, -, -, -, -, -, -, e0, e1⟩ := idx_facts ⟨(i 0).val / 5000, ht⟩
    refine ⟨⟨(i 0).val / 5000, ht⟩, flush0_5 _, ?_⟩
    rw [mem_blk]
    intro a
    match a with
    | ⟨0, _⟩ =>
      show win0_5.index ⟨(i 0).val / 5000, ht⟩ (0 : Fin 2) * 5000 ≤ (i 0).val
        ∧ (i 0).val < win0_5.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win0_5.index ⟨(i 0).val / 5000, ht⟩ (1 : Fin 2) * 128 ≤ (i 1).val
        ∧ (i 1).val < win0_5.index ⟨(i 0).val / 5000, ht⟩ (1 : Fin 2) * 128 + 128
      rw [e1]; omega

end Cert.Sage.Region0

end
-- ==== Proof.Region1.lean ====
/-
  The second launch's output array, as one function of the arrays it reads.

  The launch walks ten grid points down the 50000 nodes. At point t it reads rows 5000 t … 5000 t + 4999 of the node
  features and of the aggregated neighbour features, both weight matrices and the bias row whole, and writes back rows
  5000 t … 5000 t + 4999 of its output. Entry (p, q) of what it writes back is the step's entry (5000 t + p, q) of the
  whole arrays: row p of a node block IS row 5000 t + p of its array, and the weights and the bias do not move. The ten
  blocks tile the output (row r lies in block r / 5000), so after the launch the output array is the step of the arrays the
  launch found, whatever these are: the statement is over a parameter V, the buffer contents when the launch is entered.
-/
import proofs.«169613_j47571057770577_1_alg».proof.Proof.KernelIdealFrame
import proofs.«169613_j47571057770577_1_alg».proof.Proof.Payload
import Idealize.ShloMosaic.Lib.Pipeline.Value

set_option maxRecDepth 16384

noncomputable section

namespace Cert.Sage.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two node windows and the output window sit at block (t, 0), the weights
    and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the node block at point t is row 5000 t + p of the node array. -/
theorem nodes_apply (c : Dev nD) (t : Fin cfg1.N) (p : Fin 5000) (j : Fin 128) (r : Fin 50000) (hr : r.val = 5000 * t.val + p.val) :
    iblk1 V c 0 t (ix2 p j) = V c main_v22 (ix2 r j) := by
  obtain ⟨e0, e1, -⟩ := idx_facts t
  show V c main_v22 (((cfg1.win 0).blk t).view.emb (ix2 p j)) = V c main_v22 (ix2 r j)
  refine congrArg (V c main_v22) (funext fun a => Fin.ext ?_)
  match a with
  | ⟨0, _⟩ => show win1_0.index t (0 : Fin 2) * 5000 + 1 * p.val = r.val; omega
  | ⟨1, _⟩ => show win1_0.index t (1 : Fin 2) * 128 + 1 * j.val = j.val; omega

/-- Row p of the neighbour block at point t is row 5000 t + p of the neighbour array. -/
theorem neigh_apply (c : Dev nD) (t : Fin cfg1.N) (p : Fin 5000) (j : Fin 128) (r : Fin 50000) (hr : r.val = 5000 * t.val + p.val) :
    iblk1 V c 1 t (ix2 p j) = V c main_v34 (ix2 r j) := by
  obtain ⟨-, -, e0, e1, -⟩ := idx_facts t
  show V c main_v34 (((cfg1.win 1).blk t).view.emb (ix2 p j)) = V c main_v34 (ix2 r j)
  refine congrArg (V c main_v34) (funext fun a => Fin.ext ?_)
  match a with
  | ⟨0, _⟩ => show win1_1.index t (0 : Fin 2) * 5000 + 1 * p.val = r.val; omega
  | ⟨1, _⟩ => show win1_1.index t (1 : Fin 2) * 128 + 1 * j.val = j.val; omega

/-- The first weight block is the weight array, at every point. -/
theorem wself_apply (c : Dev nD) (t : Fin cfg1.N) (j q q' : Fin 128) (hq : q'.val = q.val) :
    iblk1 V c 2 t (ix2 j q) = V c main_arg6 (ix2 j q') := by
  obtain ⟨-, -, -, -, e0, e1, -⟩ := idx_facts t
  show V c main_arg6 (((cfg1.win 2).blk t).view.emb (ix2 j q)) = V c main_arg6 (ix2 j q')
  refine congrArg (V c main_arg6) (funext fun a => Fin.ext ?_)
  match a with
  | ⟨0, _⟩ => show win1_2.index t (0 : Fin 2) * 128 + 1 * j.val = j.val; omega
  | ⟨1, _⟩ => show win1_2.index t (1 : Fin 2) * 128 + 1 * q.val = q'.val; omega

/-- The second weight block is the weight array, at every point. -/
theorem wneigh_apply (c : Dev nD) (t : Fin cfg1.N) (j q q' : Fin 128) (hq : q'.val = q.val) :
    iblk1 V c 3 t (ix2 j q) = V c main_arg7 (ix2 j q') := by
  obtain ⟨-, -, -, -, -, -, e0, e1, -⟩ := idx_facts t
  show V c main_arg7 (((cfg1.win 3).blk t).view.emb (ix2 j q)) = V c main_arg7 (ix2 j q')
  refine congrArg (V c main_arg7) (funext fun a => Fin.ext ?_)
  match a with
  | ⟨0, _⟩ => show win1_3.index t (0 : Fin 2) * 128 + 1 * j.val = j.val; omega
  | ⟨1, _⟩ => show win1_3.index t (1 : Fin 2) * 128 + 1 * q.val = q'.val; omega

/-- The bias block is the bias row, at every point. -/
theorem bias_apply (c : Dev nD) (t : Fin cfg1.N) (q q' : Fin 128) (hq : q'.val = q.val) :
    iblk1 V c 4 t (ix2 (0 : Fin 1) q) = V c main_v35 (ix2 (0 : Fin 1) q') := by
  obtain ⟨-, -, -, -, -, -, -, -, e0, e1, -⟩ := idx_facts t
  show V c main_v35 (((cfg1.win 4).blk t).view.emb (ix2 (0 : Fin 1) q)) = V c main_v35 (ix2 (0 : Fin 1) q')
  refine congrArg (V c main_v35) (funext fun a => Fin.ext ?_)
  match a with
  | ⟨0, _⟩ => show win1_4.index t (0 : Fin 2) * 1 + 1 * 0 = 0; omega
  | ⟨1, _⟩ => show win1_4.index t (1 : Fin 2) * 128 + 1 * q.val = q'.val; omega

/-- What point t writes back is block t of the step of the arrays the launch found. -/
theorem flushed_eq (c : Dev nD) (t : Fin cfg1.N) :
    (dat1 V c).flushed 5 t = ((cfg1.win 5).blk t).view.read (Elt Ideal)
      (step true (V c main_v22) (V c main_v34) (V c main_arg6) (V c main_arg7) (V c main_v35)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have hi0 : ((((cfg1.win 5).blk t).view.emb (ix2 p q)) 0).val = 5000 * t.val + p.val := by
    show win1_5.index t (0 : Fin 2) * 5000 + 1 * p.val = _; omega
  have hi1 : ((((cfg1.win 5).blk t).view.emb (ix2 p q)) 1).val = q.val := by
    show win1_5.index t (1 : Fin 2) * 128 + 1 * q.val = _; omega
  show k1_pay1 (iblk1 V c 0 t) (iblk1 V c 1 t) (iblk1 V c 2 t) (iblk1 V c 3 t) (iblk1 V c 4 t) (ix2 p q)
    = entry true (V c main_v22) (V c main_v34) (V c main_arg6) (V c main_arg7) (V c main_v35)
        ((((cfg1.win 5).blk t).view.emb (ix2 p q)) 0) ((((cfg1.win 5).blk t).view.emb (ix2 p q)) 1)
  refine (pay1_apply (iblk1 V c 0 t) (iblk1 V c 1 t) (iblk1 V c 2 t) (iblk1 V c 3 t) (iblk1 V c 4 t) p q).trans ?_
  exact entry_eq true (iblk1 V c 0 t) (iblk1 V c 1 t) (V c main_v22) (V c main_v34) (iblk1 V c 2 t) (iblk1 V c 3 t) (V c main_arg6) (V c main_arg7)
    (iblk1 V c 4 t) (V c main_v35) p _ q _
    (fun j => nodes_apply V c t p j _ hi0) (fun j => neigh_apply V c t p j _ hi0)
    (fun j => wself_apply V c t j q _ hi1) (fun j => wneigh_apply V c t j q _ hi1) (bias_apply V c t q _ hi1)

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v36).slice (win1_5.rect t)).set ↔ _
  rw [View.set_slice_whole, Rect.mem_set_unit]
  exact Iff.rfl

/-- After the launch the output array is the step of the arrays the launch found: the ten blocks tile it. -/
theorem final (c : Dev nD) : (dat1 V c).arrAt 5 cfg1.N
    = step true (V c main_v22) (V c main_v34) (V c main_arg6) (V c main_arg7) (V c main_v35) :=
  (dat1 V c).arrAt_eq_of_cover 5 _ (fun t _ => flushed_eq V c t) fun i => by
    have h0 : (i 0).val < 50000 := (i 0).isLt
    have h1 : (i 1).val < 128 := (i 1).isLt
    have hN : grid1.N = 10 := N_1
    have ht : (i 0).val / 5000 < cfg1.N := by show _ < grid1.N; rw [hN]; omega
    obtain ⟨-, -, -, -, -, -, -, -, -, -, e0, e1⟩ := idx_facts ⟨(i 0).val / 5000, ht⟩
    refine ⟨⟨(i 0).val / 5000, ht⟩, flush1_5 _, ?_⟩
    rw [mem_blk]
    intro a
    match a with
    | ⟨0, _⟩ =>
      show win1_5.index ⟨(i 0).val / 5000, ht⟩ (0 : Fin 2) * 5000 ≤ (i 0).val
        ∧ (i 0).val < win1_5.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win1_5.index ⟨(i 0).val / 5000, ht⟩ (1 : Fin 2) * 128 ≤ (i 1).val
        ∧ (i 1).val < win1_5.index ⟨(i 0).val / 5000, ht⟩ (1 : Fin 2) * 128 + 128
      rw [e1]; omega

end Cert.Sage.Region1

end
-- ==== Proof.Region2.lean ====
/-
  The third launch's output array, as one function of the arrays it reads.

  The launch walks ten grid points down the 50000 nodes. At point t it reads rows 5000 t … 5000 t + 4999 of the node
  features and of the aggregated neighbour features, both weight matrices and the bias row whole, and writes back rows
  5000 t … 5000 t + 4999 of its output. Entry (p, q) of what it writes back is the step's entry (5000 t + p, q) of the
  whole arrays: row p of a node block IS row 5000 t + p of its array, and the weights and the bias do not move. The ten
  blocks tile the output (row r lies in block r / 5000), so after the launch the output array is the step of the arrays the
  launch found, whatever these are: the statement is over a parameter V, the buffer contents when the launch is entered.
-/
import proofs.«169613_j47571057770577_1_alg».proof.Proof.KernelIdealFrame
import proofs.«169613_j47571057770577_1_alg».proof.Proof.Payload
import Idealize.ShloMosaic.Lib.Pipeline.Value

set_option maxRecDepth 16384

noncomputable section

namespace Cert.Sage.Region2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two node windows and the output window sit at block (t, 0), the weights
    and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the node block at point t is row 5000 t + p of the node array. -/
theorem nodes_apply (c : Dev nD) (t : Fin cfg2.N) (p : Fin 5000) (j : Fin 128) (r : Fin 50000) (hr : r.val = 5000 * t.val + p.val) :
    iblk2 V c 0 t (ix2 p j) = V c main_v36 (ix2 r j) := by
  obtain ⟨e0, e1, -⟩ := idx_facts t
  show V c main_v36 (((cfg2.win 0).blk t).view.emb (ix2 p j)) = V c main_v36 (ix2 r j)
  refine congrArg (V c main_v36) (funext fun a => Fin.ext ?_)
  match a with
  | ⟨0, _⟩ => show win2_0.index t (0 : Fin 2) * 5000 + 1 * p.val = r.val; omega
  | ⟨1, _⟩ => show win2_0.index t (1 : Fin 2) * 128 + 1 * j.val = j.val; omega

/-- Row p of the neighbour block at point t is row 5000 t + p of the neighbour array. -/
theorem neigh_apply (c : Dev nD) (t : Fin cfg2.N) (p : Fin 5000) (j : Fin 128) (r : Fin 50000) (hr : r.val = 5000 * t.val + p.val) :
    iblk2 V c 1 t (ix2 p j) = V c main_v48 (ix2 r j) := by
  obtain ⟨-, -, e0, e1, -⟩ := idx_facts t
  show V c main_v48 (((cfg2.win 1).blk t).view.emb (ix2 p j)) = V c main_v48 (ix2 r j)
  refine congrArg (V c main_v48) (funext fun a => Fin.ext ?_)
  match a with
  | ⟨0, _⟩ => show win2_1.index t (0 : Fin 2) * 5000 + 1 * p.val = r.val; omega
  | ⟨1, _⟩ => show win2_1.index t (1 : Fin 2) * 128 + 1 * j.val = j.val; omega

/-- The first weight block is the weight array, at every point. -/
theorem wself_apply (c : Dev nD) (t : Fin cfg2.N) (j q q' : Fin 128) (hq : q'.val = q.val) :
    iblk2 V c 2 t (ix2 j q) = V c main_arg9 (ix2 j q') := by
  obtain ⟨-, -, -, -, e0, e1, -⟩ := idx_facts t
  show V c main_arg9 (((cfg2.win 2).blk t).view.emb (ix2 j q)) = V c main_arg9 (ix2 j q')
  refine congrArg (V c main_arg9) (funext fun a => Fin.ext ?_)
  match a with
  | ⟨0, _⟩ => show win2_2.index t (0 : Fin 2) * 128 + 1 * j.val = j.val; omega
  | ⟨1, _⟩ => show win2_2.index t (1 : Fin 2) * 128 + 1 * q.val = q'.val; omega

/-- The second weight block is the weight array, at every point. -/
theorem wneigh_apply (c : Dev nD) (t : Fin cfg2.N) (j q q' : Fin 128) (hq : q'.val = q.val) :
    iblk2 V c 3 t (ix2 j q) = V c main_arg10 (ix2 j q') := by
  obtain ⟨-, -, -, -, -, -, e0, e1, -⟩ := idx_facts t
  show V c main_arg10 (((cfg2.win 3).blk t).view.emb (ix2 j q)) = V c main_arg10 (ix2 j q')
  refine congrArg (V c main_arg10) (funext fun a => Fin.ext ?_)
  match a with
  | ⟨0, _⟩ => show win2_3.index t (0 : Fin 2) * 128 + 1 * j.val = j.val; omega
  | ⟨1, _⟩ => show win2_3.index t (1 : Fin 2) * 128 + 1 * q.val = q'.val; omega

/-- The bias block is the bias row, at every point. -/
theorem bias_apply (c : Dev nD) (t : Fin cfg2.N) (q q' : Fin 128) (hq : q'.val = q.val) :
    iblk2 V c 4 t (ix2 (0 : Fin 1) q) = V c main_v49 (ix2 (0 : Fin 1) q') := by
  obtain ⟨-, -, -, -, -, -, -, -, e0, e1, -⟩ := idx_facts t
  show V c main_v49 (((cfg2.win 4).blk t).view.emb (ix2 (0 : Fin 1) q)) = V c main_v49 (ix2 (0 : Fin 1) q')
  refine congrArg (V c main_v49) (funext fun a => Fin.ext ?_)
  match a with
  | ⟨0, _⟩ => show win2_4.index t (0 : Fin 2) * 1 + 1 * 0 = 0; omega
  | ⟨1, _⟩ => show win2_4.index t (1 : Fin 2) * 128 + 1 * q.val = q'.val; omega

/-- What point t writes back is block t of the step of the arrays the launch found. -/
theorem flushed_eq (c : Dev nD) (t : Fin cfg2.N) :
    (dat2 V c).flushed 5 t = ((cfg2.win 5).blk t).view.read (Elt Ideal)
      (step false (V c main_v36) (V c main_v48) (V c main_arg9) (V c main_arg10) (V c main_v49)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have hi0 : ((((cfg2.win 5).blk t).view.emb (ix2 p q)) 0).val = 5000 * t.val + p.val := by
    show win2_5.index t (0 : Fin 2) * 5000 + 1 * p.val = _; omega
  have hi1 : ((((cfg2.win 5).blk t).view.emb (ix2 p q)) 1).val = q.val := by
    show win2_5.index t (1 : Fin 2) * 128 + 1 * q.val = _; omega
  show k2_pay1 (iblk2 V c 0 t) (iblk2 V c 1 t) (iblk2 V c 2 t) (iblk2 V c 3 t) (iblk2 V c 4 t) (ix2 p q)
    = entry false (V c main_v36) (V c main_v48) (V c main_arg9) (V c main_arg10) (V c main_v49)
        ((((cfg2.win 5).blk t).view.emb (ix2 p q)) 0) ((((cfg2.win 5).blk t).view.emb (ix2 p q)) 1)
  refine (pay2_apply (iblk2 V c 0 t) (iblk2 V c 1 t) (iblk2 V c 2 t) (iblk2 V c 3 t) (iblk2 V c 4 t) p q).trans ?_
  exact entry_eq false (iblk2 V c 0 t) (iblk2 V c 1 t) (V c main_v36) (V c main_v48) (iblk2 V c 2 t) (iblk2 V c 3 t) (V c main_arg9) (V c main_arg10)
    (iblk2 V c 4 t) (V c main_v49) p _ q _
    (fun j => nodes_apply V c t p j _ hi0) (fun j => neigh_apply V c t p j _ hi0)
    (fun j => wself_apply V c t j q _ hi1) (fun j => wneigh_apply V c t j q _ hi1) (bias_apply V c t q _ hi1)

/-- An index of the output array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v50).slice (win2_5.rect t)).set ↔ _
  rw [View.set_slice_whole, Rect.mem_set_unit]
  exact Iff.rfl

/-- After the launch the output array is the step of the arrays the launch found: the ten blocks tile it. -/
theorem final (c : Dev nD) : (dat2 V c).arrAt 5 cfg2.N
    = step false (V c main_v36) (V c main_v48) (V c main_arg9) (V c main_arg10) (V c main_v49) :=
  (dat2 V c).arrAt_eq_of_cover 5 _ (fun t _ => flushed_eq V c t) fun i => by
    have h0 : (i 0).val < 50000 := (i 0).isLt
    have h1 : (i 1).val < 128 := (i 1).isLt
    have hN : grid2.N = 10 := N_2
    have ht : (i 0).val / 5000 < cfg2.N := by show _ < grid2.N; rw [hN]; omega
    obtain ⟨-, -, -, -, -, -, -, -, -, -, e0, e1⟩ := idx_facts ⟨(i 0).val / 5000, ht⟩
    refine ⟨⟨(i 0).val / 5000, ht⟩, flush2_5 _, ?_⟩
    rw [mem_blk]
    intro a
    match a with
    | ⟨0, _⟩ =>
      show win2_5.index ⟨(i 0).val / 5000, ht⟩ (0 : Fin 2) * 5000 ≤ (i 0).val
        ∧ (i 0).val < win2_5.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win2_5.index ⟨(i 0).val / 5000, ht⟩ (1 : Fin 2) * 128 ≤ (i 1).val
        ∧ (i 1).val < win2_5.index ⟨(i 0).val / 5000, ht⟩ (1 : Fin 2) * 128 + 128
      rw [e1]; omega

end Cert.Sage.Region2

end
-- ==== Proof.Fold.lean ====
/-
  The idealized kernel's result, as three layers of the arguments.

  The buffer contents at the six boundaries of the program are a fold from the launch memory. Walking it back from the
  result buffer: the third launch's output array is a step of what the third stretch left; the third stretch computes the
  scaled neighbour sums and the bias row from the second launch's output and passes the weights on; the second launch's
  output is a step of what the second stretch left; and so on down to the arguments, which no stretch and no launch
  writes. So the result is the third layer of the second of the first, each a step over the features it is given, their
  summed neighbour rows times the inverse clamped in-degree, that layer's weights and its bias as a row.
-/
import proofs.«169613_j47571057770577_1_alg».proof.Proof.KernelIdealFrame
import proofs.«169613_j47571057770577_1_alg».proof.Proof.KernelHost
import proofs.«169613_j47571057770577_1_alg».proof.Proof.FoldHost
import proofs.«169613_j47571057770577_1_alg».proof.Proof.Region0
import proofs.«169613_j47571057770577_1_alg».proof.Proof.Region1
import proofs.«169613_j47571057770577_1_alg».proof.Proof.Region2

set_option maxRecDepth 16384

noncomputable section

namespace Cert.Sage.Fold

open Idealize.ShloMosaic Idealize.ShloMosaic.TcCoe Idealize.SL.Sem
open Cert.KernelIdeal Cert.KernelIdeal.Gen Cert.KernelIdeal.GenP Cert.Sage Cert.Sage.KHost Cert.Sage.FoldHost

variable (m : (ℓ : Loc nD τ sig) → Buf (Elt Ideal) ℓ) (ρ : Dev nD → PrngReg)

/-- The features after the first layer, after the second, and the result, on core c. -/
def feats1 (c : Dev nD) : Feat := (layer true (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
def feats2 (c : Dev nD) : Feat := (layer true (feats1 m c) (m ((c : Thread nD τ).loc main_arg1)) (m ((c : Thread nD τ).loc main_arg2)) (m ((c : Thread nD τ).loc main_arg6)) (m ((c : Thread nD τ).loc main_arg7)) (m ((c : Thread nD τ).loc main_arg8)))
def result (c : Dev nD) : Feat :=
  layer false (feats2 m c) (m ((c : Thread nD τ).loc main_arg1)) (m ((c : Thread nD τ).loc main_arg2)) (m ((c : Thread nD τ).loc main_arg9)) (m ((c : Thread nD τ).loc main_arg10)) (m ((c : Thread nD τ).loc main_arg11))

/-! ## The first launch's entry: after the first stretch -/

theorem k1_arg0 (c : Dev nD) : W1 m ρ c (Proc.devRef .tc main_arg0) = m ((c : Thread nD τ).loc main_arg0) := h0_arg0 (W0 m ρ c)
theorem k1_arg1 (c : Dev nD) : W1 m ρ c (Proc.devRef .tc main_arg1) = m ((c : Thread nD τ).loc main_arg1) := h0_arg1 (W0 m ρ c)
theorem k1_arg2 (c : Dev nD) : W1 m ρ c (Proc.devRef .tc main_arg2) = m ((c : Thread nD τ).loc main_arg2) := h0_arg2 (W0 m ρ c)
theorem k1_arg3 (c : Dev nD) : W1 m ρ c (Proc.devRef .tc main_arg3) = m ((c : Thread nD τ).loc main_arg3) := h0_arg3 (W0 m ρ c)
theorem k1_arg4 (c : Dev nD) : W1 m ρ c (Proc.devRef .tc main_arg4) = m ((c : Thread nD τ).loc main_arg4) := h0_arg4 (W0 m ρ c)
theorem k1_arg6 (c : Dev nD) : W1 m ρ c (Proc.devRef .tc main_arg6) = m ((c : Thread nD τ).loc main_arg6) := h0_arg6 (W0 m ρ c)
theorem k1_arg7 (c : Dev nD) : W1 m ρ c (Proc.devRef .tc main_arg7) = m ((c : Thread nD τ).loc main_arg7) := h0_arg7 (W0 m ρ c)
theorem k1_arg8 (c : Dev nD) : W1 m ρ c (Proc.devRef .tc main_arg8) = m ((c : Thread nD τ).loc main_arg8) := h0_arg8 (W0 m ρ c)
theorem k1_arg9 (c : Dev nD) : W1 m ρ c (Proc.devRef .tc main_arg9) = m ((c : Thread nD τ).loc main_arg9) := h0_arg9 (W0 m ρ c)
theorem k1_arg10 (c : Dev nD) : W1 m ρ c (Proc.devRef .tc main_arg10) = m ((c : Thread nD τ).loc main_arg10) := h0_arg10 (W0 m ρ c)
theorem k1_arg11 (c : Dev nD) : W1 m ρ c (Proc.devRef .tc main_arg11) = m ((c : Thread nD τ).loc main_arg11) := h0_arg11 (W0 m ρ c)
theorem k1_v8 (c : Dev nD) : W1 m ρ c (Proc.devRef .tc main_v8) = invDegCol (m ((c : Thread nD τ).loc main_arg2)) := h0_v8 (W0 m ρ c)
theorem k1_v20 (c : Dev nD) : W1 m ρ c (Proc.devRef .tc main_v20)
    = neigh (m ((c : Thread nD τ).loc main_arg0)) (m ((c : Thread nD τ).loc main_arg1)) (m ((c : Thread nD τ).loc main_arg2)) (invDegCol (m ((c : Thread nD τ).loc main_arg2))) := h0_v20 (W0 m ρ c)
theorem k1_v21 (c : Dev nD) : W1 m ρ c (Proc.devRef .tc main_v21) = biasRow (m ((c : Thread nD τ).loc main_arg5)) := h0_v21 (W0 m ρ c)

/-- The first launch leaves the first layer of the arguments in its output array. -/
theorem out0 (c : Dev nD) : W2 m ρ c (Proc.devRef .tc main_v22) = feats1 m c :=
  (W2_arr m ρ c 5).trans ((Region0.final (V1 m ρ) c).trans
    (step_congr true (k1_arg0 m ρ c) (k1_v20 m ρ c) (k1_arg3 m ρ c) (k1_arg4 m ρ c) (k1_v21 m ρ c)))

/-! ## Across the first launch: it writes only its output array -/

theorem k2_arg1 (c : Dev nD) : W2 m ρ c (Proc.devRef .tc main_arg1) = m ((c : Thread nD τ).loc main_arg1) := (W2_of_ne m ρ c main_arg1 (by decide)).trans (k1_arg1 m ρ c)
theorem k2_arg2 (c : Dev nD) : W2 m ρ c (Proc.devRef .tc main_arg2) = m ((c : Thread nD τ).loc main_arg2) := (W2_of_ne m ρ c main_arg2 (by decide)).trans (k1_arg2 m ρ c)
theorem k2_arg6 (c : Dev nD) : W2 m ρ c (Proc.devRef .tc main_arg6) = m ((c : Thread nD τ).loc main_arg6) := (W2_of_ne m ρ c main_arg6 (by decide)).trans (k1_arg6 m ρ c)
theorem k2_arg7 (c : Dev nD) : W2 m ρ c (Proc.devRef .tc main_arg7) = m ((c : Thread nD τ).loc main_arg7) := (W2_of_ne m ρ c main_arg7 (by decide)).trans (k1_arg7 m ρ c)
theorem k2_arg8 (c : Dev nD) : W2 m ρ c (Proc.devRef .tc main_arg8) = m ((c : Thread nD τ).loc main_arg8) := (W2_of_ne m ρ c main_arg8 (by decide)).trans (k1_arg8 m ρ c)
theorem k2_arg9 (c : Dev nD) : W2 m ρ c (Proc.devRef .tc main_arg9) = m ((c : Thread nD τ).loc main_arg9) := (W2_of_ne m ρ c main_arg9 (by decide)).trans (k1_arg9 m ρ c)
theorem k2_arg10 (c : Dev nD) : W2 m ρ c (Proc.devRef .tc main_arg10) = m ((c : Thread nD τ).loc main_arg10) := (W2_of_ne m ρ c main_arg10 (by decide)).trans (k1_arg10 m ρ c)
theorem k2_arg11 (c : Dev nD) : W2 m ρ c (Proc.devRef .tc main_arg11) = m ((c : Thread nD τ).loc main_arg11) := (W2_of_ne m ρ c main_arg11 (by decide)).trans (k1_arg11 m ρ c)
theorem k2_v8 (c : Dev nD) : W2 m ρ c (Proc.devRef .tc main_v8) = invDegCol (m ((c : Thread nD τ).loc main_arg2)) := (W2_of_ne m ρ c main_v8 (by decide)).trans (k1_v8 m ρ c)

/-! ## The second launch's entry: after the second stretch -/

theorem k3_arg1 (c : Dev nD) : W3 m ρ c (Proc.devRef .tc main_arg1) = m ((c : Thread nD τ).loc main_arg1) := (h1_arg1 (W2 m ρ c)).trans (k2_arg1 m ρ c)
theorem k3_arg2 (c : Dev nD) : W3 m ρ c (Proc.devRef .tc main_arg2) = m ((c : Thread nD τ).loc main_arg2) := (h1_arg2 (W2 m ρ c)).trans (k2_arg2 m ρ c)
theorem k3_arg6 (c : Dev nD) : W3 m ρ c (Proc.devRef .tc main_arg6) = m ((c : Thread nD τ).loc main_arg6) := (h1_arg6 (W2 m ρ c)).trans (k2_arg6 m ρ c)
theorem k3_arg7 (c : Dev nD) : W3 m ρ c (Proc.devRef .tc main_arg7) = m ((c : Thread nD τ).loc main_arg7) := (h1_arg7 (W2 m ρ c)).trans (k2_arg7 m ρ c)
theorem k3_arg9 (c : Dev nD) : W3 m ρ c (Proc.devRef .tc main_arg9) = m ((c : Thread nD τ).loc main_arg9) := (h1_arg9 (W2 m ρ c)).trans (k2_arg9 m ρ c)
theorem k3_arg10 (c : Dev nD) : W3 m ρ c (Proc.devRef .tc main_arg10) = m ((c : Thread nD τ).loc main_arg10) := (h1_arg10 (W2 m ρ c)).trans (k2_arg10 m ρ c)
theorem k3_arg11 (c : Dev nD) : W3 m ρ c (Proc.devRef .tc main_arg11) = m ((c : Thread nD τ).loc main_arg11) := (h1_arg11 (W2 m ρ c)).trans (k2_arg11 m ρ c)
theorem k3_v8 (c : Dev nD) : W3 m ρ c (Proc.devRef .tc main_v8) = invDegCol (m ((c : Thread nD τ).loc main_arg2)) := (h1_v8 (W2 m ρ c)).trans (k2_v8 m ρ c)
theorem k3_v22 (c : Dev nD) : W3 m ρ c (Proc.devRef .tc main_v22) = feats1 m c := (h1_v22 (W2 m ρ c)).trans (out0 m ρ c)
theorem k3_v34 (c : Dev nD) : W3 m ρ c (Proc.devRef .tc main_v34)
    = neigh (feats1 m c) (m ((c : Thread nD τ).loc main_arg1)) (m ((c : Thread nD τ).loc main_arg2)) (invDegCol (m ((c : Thread nD τ).loc main_arg2))) :=
  (h1_v34 (W2 m ρ c)).trans (neigh_congr (out0 m ρ c) (k2_arg1 m ρ c) (k2_arg2 m ρ c) (k2_v8 m ρ c))
theorem k3_v35 (c : Dev nD) : W3 m ρ c (Proc.devRef .tc main_v35) = biasRow (m ((c : Thread nD τ).loc main_arg8)) :=
  (h1_v35 (W2 m ρ c)).trans (congrArg biasRow (k2_arg8 m ρ c))

/-- The second launch leaves the second layer in its output array. -/
theorem out1 (c : Dev nD) : W4 m ρ c (Proc.devRef .tc main_v36) = feats2 m c :=
  (W4_arr m ρ c 5).trans ((Region1.final (V3 m ρ) c).trans
    (step_congr true (k3_v22 m ρ c) (k3_v34 m ρ c) (k3_arg6 m ρ c) (k3_arg7 m ρ c) (k3_v35 m ρ c)))

/-! ## Across the second launch -/

theorem k4_arg1 (c : Dev nD) : W4 m ρ c (Proc.devRef .tc main_arg1) = m ((c : Thread nD τ).loc main_arg1) := (W4_of_ne m ρ c main_arg1 (by decide)).trans (k3_arg1 m ρ c)
theorem k4_arg2 (c : Dev nD) : W4 m ρ c (Proc.devRef .tc main_arg2) = m ((c : Thread nD τ).loc main_arg2) := (W4_of_ne m ρ c main_arg2 (by decide)).trans (k3_arg2 m ρ c)
theorem k4_arg9 (c : Dev nD) : W4 m ρ c (Proc.devRef .tc main_arg9) = m ((c : Thread nD τ).loc main_arg9) := (W4_of_ne m ρ c main_arg9 (by decide)).trans (k3_arg9 m ρ c)
theorem k4_arg10 (c : Dev nD) : W4 m ρ c (Proc.devRef .tc main_arg10) = m ((c : Thread nD τ).loc main_arg10) := (W4_of_ne m ρ c main_arg10 (by decide)).trans (k3_arg10 m ρ c)
theorem k4_arg11 (c : Dev nD) : W4 m ρ c (Proc.devRef .tc main_arg11) = m ((c : Thread nD τ).loc main_arg11) := (W4_of_ne m ρ c main_arg11 (by decide)).trans (k3_arg11 m ρ c)
theorem k4_v8 (c : Dev nD) : W4 m ρ c (Proc.devRef .tc main_v8) = invDegCol (m ((c : Thread nD τ).loc main_arg2)) := (W4_of_ne m ρ c main_v8 (by decide)).trans (k3_v8 m ρ c)

/-! ## The third launch's entry: after the third stretch -/

theorem k5_arg9 (c : Dev nD) : W5 m ρ c (Proc.devRef .tc main_arg9) = m ((c : Thread nD τ).loc main_arg9) := (h2_arg9 (W4 m ρ c)).trans (k4_arg9 m ρ c)
theorem k5_arg10 (c : Dev nD) : W5 m ρ c (Proc.devRef .tc main_arg10) = m ((c : Thread nD τ).loc main_arg10) := (h2_arg10 (W4 m ρ c)).trans (k4_arg10 m ρ c)
theorem k5_v36 (c : Dev nD) : W5 m ρ c (Proc.devRef .tc main_v36) = feats2 m c := (h2_v36 (W4 m ρ c)).trans (out1 m ρ c)
theorem k5_v48 (c : Dev nD) : W5 m ρ c (Proc.devRef .tc main_v48)
    = neigh (feats2 m c) (m ((c : Thread nD τ).loc main_arg1)) (m ((c : Thread nD τ).loc main_arg2)) (invDegCol (m ((c : Thread nD τ).loc main_arg2))) :=
  (h2_v48 (W4 m ρ c)).trans (neigh_congr (out1 m ρ c) (k4_arg1 m ρ c) (k4_arg2 m ρ c) (k4_v8 m ρ c))
theorem k5_v49 (c : Dev nD) : W5 m ρ c (Proc.devRef .tc main_v49) = biasRow (m ((c : Thread nD τ).loc main_arg11)) :=
  (h2_v49 (W4 m ρ c)).trans (congrArg biasRow (k4_arg11 m ρ c))

/-- The result buffer ends at the third layer of the second of the first. -/
theorem value (c : Dev nD) : W6 m ρ c (Proc.devRef .tc main_v50) = result m c :=
  (W6_arr m ρ c 5).trans ((Region2.final (V5 m ρ) c).trans
    (step_congr false (k5_v36 m ρ c) (k5_v48 m ρ c) (k5_arg9 m ρ c) (k5_arg10 m ρ c) (k5_v49 m ρ c)))

end Cert.Sage.Fold

end
-- ==== Proof.RefLayer.lean ====
/-
  The reference, layer by layer.

  The reference program is three identical layers on the host. A layer sums, for every node, the feature rows of the
  nodes that point to it (a gather along the source list, a scatter-add along the destination list), divides each summed
  row by the node's clamped in-degree, multiplies the node features and the divided sums by two weight matrices, adds
  the two products and the bias, and — in the first two layers — takes the maximum with zero. Its whole result is the
  third layer of the second of the first of the features.

  Read at entry (r, q), a layer is the sum over j of h (r, j) · ws (j, q), plus the sum over j of
  (summed (r, j) / degree r) · wn (j, q), plus b q. The gather and the scatter-add are never opened: which rows they read
  depends on the edge lists, and both programs apply the same two operations to the same arrays.
-/
import proofs.«169613_j47571057770577_1_alg».proof.Proof.Gen.ReferenceIdeal.Read
import proofs.«169613_j47571057770577_1_alg».proof.Proof.Spec
import proofs.«169613_j47571057770577_1_alg».proof.Proof.LibLayoutRead
import Idealize.ShloMosaic.Lib.ValueIdx
import Idealize.ShloMosaic.PureOps.Ideal.Laws

set_option maxRecDepth 16384

noncomputable section

open scoped BigOperators

namespace Cert.Sage.Ref

open Idealize.ShloMosaic Idealize.ShloMosaic.TcCoe Idealize.SL.Sem Idealize.ShloMosaic.ValueIdx Cert.ReferenceIdeal Cert.ReferenceIdeal.Gen Cert.Sage

/-- Node features, edge lists, weights, biases. -/
abbrev Feat := FVec Ideal S50000x128 .f32
abbrev Edges := IVec S1600000 32
abbrev Wt := FVec Ideal S128x128 .f32
abbrev Bias := FVec Ideal S128 .f32

/-- The clamped in-degree of every node: the number of edges that arrive, at least one. -/
def deg (dst : Edges) : FVec Ideal S50000 .f32 :=
  maximumf (Host.scatterAdd scatter_S50000_S1600000x1_S1600000_n_0_0_1 (broadcastInDim S50000 ![] bcast_S_S50000 (constant S_ .f32 0x00000000#32)) (broadcastInDim S1600000x1 ![0] bcast_S1600000_S1600000x1_0 dst) (broadcastInDim S1600000 ![] bcast_S_S1600000 (constant S_ .f32 0x3F800000#32))) (broadcastInDim S50000 ![] bcast_S_S50000 (constant S_ .f32 0x3F800000#32))

/-- The summed neighbour rows: row r is the sum of the rows h (src e) over the edges e with dst e = r. -/
def agg (h : Feat) (src dst : Edges) : Feat :=
  Host.scatterAdd scatter_S50000x128_S1600000x1_S1600000x128_1_0_0_1 (broadcastInDim S50000x128 ![] bcast_S_S50000x128 (constant S_ .f32 0x00000000#32)) (broadcastInDim S1600000x1 ![0] bcast_S1600000_S1600000x1_0 dst) (Host.gather gather_S50000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 50000#32))) src)))

/-- A layer without activation. -/
def layerSum (h : Feat) (src dst : Edges) (ws wn : Wt) (b : Bias) : Feat :=
  addf (addf (Host.dotGeneral dot_S50000x128_S128x128_S50000x128_1_0_0_1_n_n none h ws) (Host.dotGeneral dot_S50000x128_S128x128_S50000x128_1_0_0_1_n_n none (Host.divf (agg h src dst) (broadcastInDim S50000x128 ![0, 1] bcast_S50000x1_S50000x128_0_1 (broadcastInDim S50000x1 ![0] bcast_S50000_S50000x1_0 (deg dst)))) wn)) (broadcastInDim S50000x128 ![0, 1] bcast_S1x128_S50000x128_0_1 (broadcastInDim S1x128 ![1] bcast_S128_S1x128_1 b))

/-- A layer with its activation: the maximum with zero. -/
def layerRelu (h : Feat) (src dst : Edges) (ws wn : Wt) (b : Bias) : Feat :=
  maximumf (layerSum h src dst ws wn b) (broadcastInDim S50000x128 ![] bcast_S_S50000x128 (constant S_ .f32 0x00000000#32))

/-- The reference's result is the third layer of the second of the first. -/
theorem res_eq (m : (ℓ : Loc nD τ sig) → Buf (Elt Ideal) ℓ) (c : Dev nD) :
    Cert.ReferenceIdeal.Value.res_main_v64 (F := Ideal) m c
      = layerSum (layerRelu (layerRelu (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))
          (m ((c.tc : Thread nD τ).loc main_arg1)) (m ((c.tc : Thread nD τ).loc main_arg2))
          (m ((c.tc : Thread nD τ).loc main_arg6)) (m ((c.tc : Thread nD τ).loc main_arg7)) (m ((c.tc : Thread nD τ).loc main_arg8)))
        (m ((c.tc : Thread nD τ).loc main_arg1)) (m ((c.tc : Thread nD τ).loc main_arg2))
        (m ((c.tc : Thread nD τ).loc main_arg9)) (m ((c.tc : Thread nD τ).loc main_arg10)) (m ((c.tc : Thread nD τ).loc main_arg11)) := by
  unfold Cert.ReferenceIdeal.Value.res_main_v64 layerSum layerRelu agg deg
  rfl

theorem lidx_eq (r : Fin 50000) (q k : Fin 128) : Cert.ReferenceIdeal.Read.lidx_main_v19 (ix2 r q) k = ix2 r k :=
  funext fun a => by match a with | ⟨0, _⟩ => rfl | ⟨1, _⟩ => rfl

theorem ridx_eq (r : Fin 50000) (q k : Fin 128) : Cert.ReferenceIdeal.Read.ridx_main_v19 (ix2 r q) k = ix2 k q :=
  funext fun a => by match a with | ⟨0, _⟩ => rfl | ⟨1, _⟩ => rfl

/-- The host's product of a node array with a weight matrix, at entry (r, q). -/
theorem dot_apply (x : Feat) (w : Wt) (r : Fin 50000) (q : Fin 128) :
    Host.dotGeneral (F := Ideal) dot_S50000x128_S128x128_S50000x128_1_0_0_1_n_n none x w (ix2 r q) = ∑ j : Fin 128, x (ix2 r j) * w (ix2 j q) := by
  refine (Cert.ReferenceIdeal.Read.val_main_v19_apply x w (ix2 r q)).trans ?_
  simp only [lidx_eq, ridx_eq]

/-- The host's quotient of two node arrays, entry by entry. -/
theorem divf_apply (a d : Feat) (i : S50000x128.Idx) : Host.divf (F := Ideal) a d i = Ideal.div (a i) (d i) := rfl

/-- The divided neighbour sums at (r, j): the summed row's entry over the node's clamped in-degree. -/
theorem nb_apply (h : Feat) (src dst : Edges) (r : Fin 50000) (j : Fin 128) :
    Host.divf (F := Ideal) (agg h src dst) (broadcastInDim S50000x128 ![0, 1] bcast_S50000x1_S50000x128_0_1 (broadcastInDim S50000x1 ![0] bcast_S50000_S50000x1_0 (deg dst))) (ix2 r j)
      = Ideal.div (agg h src dst (ix2 r j)) (deg dst (ix1 r)) := by
  rw [divf_apply, Cert.LayoutRead.bid_cols, Cert.LayoutRead.bid_col]

/-- A layer without activation, at entry (r, q). -/
theorem layerSum_apply (h : Feat) (src dst : Edges) (ws wn : Wt) (b : Bias) (r : Fin 50000) (q : Fin 128) :
    layerSum h src dst ws wn b (ix2 r q)
      = (∑ j : Fin 128, h (ix2 r j) * ws (ix2 j q))
        + (∑ j : Fin 128, Ideal.div (agg h src dst (ix2 r j)) (deg dst (ix1 r)) * wn (ix2 j q)) + b (ix1 q) := by
  unfold layerSum
  have hs : (∑ j : Fin 128, Host.divf (F := Ideal) (agg h src dst) (broadcastInDim S50000x128 ![0, 1] bcast_S50000x1_S50000x128_0_1
        (broadcastInDim S50000x1 ![0] bcast_S50000_S50000x1_0 (deg dst))) (ix2 r j) * wn (ix2 j q))
      = ∑ j : Fin 128, Ideal.div (agg h src dst (ix2 r j)) (deg dst (ix1 r)) * wn (ix2 j q) :=
    Finset.sum_congr rfl fun j _ => by rw [nb_apply]
  rw [addf_apply, addf_apply, dot_apply, dot_apply, Cert.LayoutRead.bid_rows, Cert.LayoutRead.bid_row, hs]

/-- A layer with activation, at entry (r, q). -/
theorem layerRelu_apply (h : Feat) (src dst : Edges) (ws wn : Wt) (b : Bias) (r : Fin 50000) (q : Fin 128) :
    layerRelu h src dst ws wn b (ix2 r q)
      = max ((∑ j : Fin 128, h (ix2 r j) * ws (ix2 j q))
        + (∑ j : Fin 128, Ideal.div (agg h src dst (ix2 r j)) (deg dst (ix1 r)) * wn (ix2 j q)) + b (ix1 q)) (Ideal.ofBits .f32 0x00000000#32) := by
  unfold layerRelu
  rw [maximumf_apply, layerSum_apply, Cert.LayoutRead.bcast_scalar]
  rfl

end Cert.Sage.Ref

end
-- ==== Proof.Bridge.lean ====
/-
  A layer of the kernel's program is the reference's layer.

  Entry by entry both are: the features' row against the first weight matrix's column, plus the neighbour row against the
  second's, plus the bias. The bias row at (0, q) is the bias vector at q. The neighbour rows differ in form only: the
  kernel's program multiplies the summed row by 1 / d, the reference divides it by d, where d is the node's clamped
  in-degree, the maximum of an edge count and one. d is not zero, so both are the summed row's entry times d⁻¹. The summed
  rows themselves are the same gather and scatter-add of the same arrays in both programs and are not opened.
-/
import proofs.«169613_j47571057770577_1_alg».proof.Proof.KernelHost
import proofs.«169613_j47571057770577_1_alg».proof.Proof.RefLayer
import proofs.«169613_j47571057770577_1_alg».proof.Proof.Spec
import proofs.«169613_j47571057770577_1_alg».proof.Proof.LibRecip
import proofs.«169613_j47571057770577_1_alg».proof.Proof.LibLayoutRead
import Idealize.ShloMosaic.Lib.IdealHost
import Idealize.ShloMosaic.Lib.ValueIdx

set_option maxRecDepth 16384

noncomputable section

open scoped BigOperators

namespace Cert.Sage.Bridge

open Idealize.ShloMosaic Idealize.ShloMosaic.ValueIdx Cert.Sage

/-- Both programs sum the neighbour rows by the same two operations. -/
theorem agg_eq (h : KHost.Feat) (src dst : KHost.Edges) : KHost.agg h src dst = Ref.agg h src dst := rfl

/-- Both programs count and clamp the in-degree by the same operations. -/
theorem deg_eq (dst : KHost.Edges) : KHost.deg dst = Ref.deg dst := rfl

/-- The clamped in-degree is not zero. -/
theorem deg_ne_zero (dst : Ref.Edges) (r : Fin 50000) : Ref.deg dst (ix1 r) ≠ 0 := by
  unfold Ref.deg
  rw [maximumf_apply, Cert.LayoutRead.bcast_scalar, constant_apply, Ideal.ofBits_one_f32]
  exact Cert.LibRecip.max_one_ne_zero _

/-- The neighbour rows' products agree: times the reciprocal is over the degree. -/
theorem nb_sum (h : KHost.Feat) (src dst : KHost.Edges) (wn : KHost.Wt) (r : Fin 50000) (q : Fin 128) :
    (∑ j : Fin 128, KHost.neigh h src dst (KHost.invDegCol dst) (ix2 r j) * wn (ix2 j q))
      = ∑ j : Fin 128, Ideal.div (Ref.agg h src dst (ix2 r j)) (Ref.deg dst (ix1 r)) * wn (ix2 j q) :=
  Finset.sum_congr rfl fun j _ => by
    rw [KHost.neigh_apply, agg_eq, deg_eq, Ideal.ofBits_one_f32, ← Cert.LibRecip.div_eq_mul_recip _ _ (deg_ne_zero dst r)]

/-- A layer without activation. -/
theorem layer_eq_sum (h : KHost.Feat) (src dst : KHost.Edges) (ws wn : KHost.Wt) (b : KHost.Bias) :
    KHost.layer false h src dst ws wn b = Ref.layerSum h src dst ws wn b := by
  funext i
  obtain ⟨r, q, rfl⟩ : ∃ (r : Fin 50000) (q : Fin 128), i = ix2 r q := ⟨i 0, i 1, eq_ix2 i⟩
  rw [Ref.layerSum_apply]
  unfold KHost.layer
  rw [step_ix2]
  unfold entry
  simp only [cond_false]
  rw [KHost.biasRow_apply, nb_sum]

/-- A layer with its activation. -/
theorem layer_eq_relu (h : KHost.Feat) (src dst : KHost.Edges) (ws wn : KHost.Wt) (b : KHost.Bias) :
    KHost.layer true h src dst ws wn b = Ref.layerRelu h src dst ws wn b := by
  funext i
  obtain ⟨r, q, rfl⟩ : ∃ (r : Fin 50000) (q : Fin 128), i = ix2 r q := ⟨i 0, i 1, eq_ix2 i⟩
  rw [Ref.layerRelu_apply]
  unfold KHost.layer
  rw [step_ix2]
  unfold entry
  simp only [cond_true]
  rw [KHost.biasRow_apply, nb_sum]

/-- Three layers of the reference are three layers of the kernel's program. -/
theorem three_layers (x : KHost.Feat) (s d : KHost.Edges) (w0 w1 w2 w3 w4 w5 : KHost.Wt) (b0 b1 b2 : KHost.Bias) :
    Ref.layerSum (Ref.layerRelu (Ref.layerRelu x s d w0 w1 b0) s d w2 w3 b1) s d w4 w5 b2
      = KHost.layer false (KHost.layer true (KHost.layer true x s d w0 w1 b0) s d w2 w3 b1) s d w4 w5 b2 := by
  rw [layer_eq_relu, layer_eq_relu, layer_eq_sum]

end Cert.Sage.Bridge

end
-- ==== Proof.lean ====
/-
  Three layers of a graph convolution: a tiled kernel against its array reference, on the extended reals.

  Both programs take node features (50000 nodes, 128 channels), an edge list (1.6 million source and destination nodes),
  and for each of three layers two 128 x 128 weight matrices and a bias. A layer sums, for every node, the feature rows of
  the nodes pointing to it, scales the sum by the inverse of the node's in-degree clamped below at one, and returns
  h · ws + scaled · wn + b, clamped below at zero in the first two layers.

  The kernel's program sums the neighbour rows on the host and does the two matrix products, the bias and the clamp in a
  launch per layer, ten blocks of 5000 nodes each; it scales by MULTIPLYING with 1 / d, the reference by DIVIDING by d. On
  the extended reals x / d and x · (1 / d) are both x · d⁻¹ as soon as d ≠ 0, and d is at least one; the products' operands
  are rounded to a shorter float format in the kernel, which is the identity there; the tiling changes nothing. So the two
  results are one function of the arguments, and no finiteness of the inputs is used.

  The modules: Spec (a layer's entry and the law), Payload (a launch's body at an entry), Region0 / Region1 / Region2 (a
  launch's output array from its ten blocks), KernelRun (the kernel's run with the result named), KernelHost and FoldHost
  (the host operations between the launches), Fold (the result walked back to the arguments), RefLayer (the reference,
  layer by layer), Bridge (a layer of one is a layer of the other).
-/
import proofs.«169613_j47571057770577_1_alg».proof.Defs
import proofs.«169613_j47571057770577_1_alg».proof.Proof.Gen.Kernel
import proofs.«169613_j47571057770577_1_alg».proof.Proof.Gen.KernelIdeal
import proofs.«169613_j47571057770577_1_alg».proof.Proof.Gen.ReferenceIdeal
import proofs.«169613_j47571057770577_1_alg».proof.Proof.Gen.ReferenceIdeal.Run
import proofs.«169613_j47571057770577_1_alg».proof.Proof.Gen.ReferenceIdeal.Read
import proofs.«169613_j47571057770577_1_alg».proof.Proof.Gen.Pre_finite_inputs
import proofs.«169613_j47571057770577_1_alg».proof.Proof.KernelFrame
import proofs.«169613_j47571057770577_1_alg».proof.Proof.KernelIdealFrame
import proofs.«169613_j47571057770577_1_alg».proof.Proof.KernelRun
import proofs.«169613_j47571057770577_1_alg».proof.Proof.Fold
import proofs.«169613_j47571057770577_1_alg».proof.Proof.RefLayer
import proofs.«169613_j47571057770577_1_alg».proof.Proof.Bridge
import Idealize.ShloMosaic.Adequacy
import Idealize.ShloMosaic.Init

set_option maxRecDepth 16384

noncomputable section

namespace Cert.Proof

open Idealize.ShloMosaic Idealize.SL.Sem

/-- The printed kernel runs and keeps its arguments. -/
theorem frame_k : Cert.frame_Kernel := fun m ρ _ => Cert.Kernel.GenP.frame m ρ

/-- The idealized kernel runs and keeps its arguments. -/
theorem frame_ki : Cert.frame_KernelIdeal := fun m ρ _ => Cert.KernelIdeal.GenP.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The two idealized programs end with equal results: the kernel's is three of its layers of the arguments (Fold), the
    reference's three of its own (RefLayer), the arguments agree, and a layer of one is a layer of the other (Bridge). -/
theorem algebraic : Cert.algebraic_KernelIdeal_ReferenceIdeal := by
  intro m ρ m' ρ' _ hagree
  refine ⟨fun c => Cert.Sage.Fold.result m c, ?_, ?_⟩
  · exact (θ_run Cert.KernelIdeal.defs _ _).mono
      (fun r h c => ⟨(h c).1.trans (Cert.Sage.Fold.value m ρ c), (h c).2⟩)
      (Cert.Sage.KernelRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.Sage.Ref.res_eq, a0, a1, a2, a3, a4, a5, a6, a7, a8, a9, a10, a11]
    unfold Cert.Sage.Fold.result Cert.Sage.Fold.feats2 Cert.Sage.Fold.feats1
    exact Cert.Sage.Bridge.three_layers _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
